-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S256x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x500000 32) (main_arg2 : FVec F S500000x128 .f32) (main_arg3 : FVec F S384x256 .f32) (main_arg4 : FVec F S256 .f32) (main_arg5 : FVec F S256x128 .f32) (main_arg6 : FVec F S128 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x500000 : Shape := ⟨2, ![2, 500000]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x256 : Shape := ⟨2, ![1, 256]⟩
abbrev S1x128 : Shape := ⟨2, ![1, 128]⟩
abbrev S4000x128 : Shape := ⟨2, ![4000, 128]⟩
abbrev S128x256 : Shape := ⟨2, ![128, 256]⟩
abbrev S4000x256 : Shape := ⟨2, ![4000, 256]⟩
abbrev S2000x128 : Shape := ⟨2, ![2000, 128]⟩
abbrev S2000x256 : Shape := ⟨2, ![2000, 256]⟩

abbrev nBuf : Space → Nat
  | .hbm => 50
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S50000x128, .bf16⟩
  | .hbm, ⟨16, _⟩ => ⟨S500000x128, .bf16⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .bf16⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .bf16⟩
  | .hbm, ⟨35, _⟩ => ⟨S384x256, .bf16⟩
  | .hbm, ⟨36, _⟩ => ⟨S256x128, .bf16⟩
  | .hbm, ⟨37, _⟩ => ⟨S256x256, .bf16⟩
  | .hbm, ⟨38, _⟩ => ⟨S256x128, .bf16⟩
  | .hbm, ⟨39, _⟩ => ⟨S1x256, .f32⟩
  | .hbm, ⟨40, _⟩ => ⟨S1x128, .f32⟩
  | .hbm, ⟨41, _⟩ => ⟨S1x256, .f32⟩
  | .hbm, ⟨42, _⟩ => ⟨S1x128, .f32⟩
  | .hbm, ⟨43, _⟩ => ⟨S500000x128, .f32⟩
  | .hbm, ⟨44, _⟩ => ⟨S_, .f32⟩
  | .hbm, ⟨45, _⟩ => ⟨S50000x128, .f32⟩
  | .hbm, ⟨46, _⟩ => ⟨S500000x1, .i32⟩
  | .hbm, ⟨47, _⟩ => ⟨S50000x128, .f32⟩
  | .hbm, ⟨48, _⟩ => ⟨S50000x128, .bf16⟩
  | .hbm, ⟨49, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S384x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S256x256, .bf16⟩
  | .local _ .vmem, ⟨17, _⟩ => ⟨S1x256, .f32⟩
  | .local _ .vmem, ⟨18, _⟩ => ⟨S256x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S384x256_S128x256_0_0 : ∀ a, (![0, 0] : Fin 2 → Nat) a + S128x256.size a ≤ S384x256.size a
  h_S128x256 : 0 < S128x256.numel
  shapeCasts_S128x256_S128x256 : S128x256.ShapeCasts S128x256
  inb_S384x256_S128x256_128_0 : ∀ a, (![128, 0] : Fin 2 → Nat) a + S128x256.size a ≤ S384x256.size a
  inb_S384x256_S128x256_256_0 : ∀ a, (![256, 0] : Fin 2 → Nat) a + S128x256.size a ≤ S384x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S256x256_S128x256_0_0 : ∀ a, (![0, 0] : Fin 2 → Nat) a + S128x256.size a ≤ S256x256.size a
  inb_S256x256_S128x256_128_0 : ∀ a, (![128, 0] : Fin 2 → Nat) a + S128x256.size a ≤ S256x256.size a
  broadcasts_S1x256_S2000x256 : S1x256.Broadcasts S2000x256
  broadcasts_S1x128_S2000x128 : S1x128.Broadcasts S2000x128
  gather_S50000x128_S500000x1_S500000x128_1_0_n_n_0_1_1128_wf : GatherDims.WF S50000x128 S500000x1 S500000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .bf16 = 32 ∨ (Rect.block (s := S500000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S500000x128.size a
  hwx0_7 : ∀ i : grid0.Coords, EltTy.bits .f32 = 32 ∨ (Rect.block (s := S500000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S500000x384, .f32⟩
  | .hbm, ⟨34, _⟩ => ⟨S500000x256, .f32⟩
  | .hbm, ⟨35, _⟩ => ⟨S1x256, .f32⟩
  | .hbm, ⟨36, _⟩ => ⟨S500000x256, .f32⟩
  | .hbm, ⟨37, _⟩ => ⟨S500000x256, .f32⟩
  | .hbm, ⟨38, _⟩ => ⟨S_, .f32⟩
  | .hbm, ⟨39, _⟩ => ⟨S500000x256, .f32⟩
  | .hbm, ⟨40, _⟩ => ⟨S500000x256, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S_, .f32⟩
  | .hbm, ⟨46, _⟩ => ⟨S50000x128, .f32⟩
  | .hbm, ⟨47, _⟩ => ⟨S500000x1, .i32⟩
  | .hbm, ⟨48, _⟩ => ⟨S50000x128, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x384_S384x256_S500000x256_1_0_0_1_n_n_wf : DotDims.WF S500000x384 S384x256 S500000x256 [1] [0] [0] [1] [] []
  dot_S500000x256_S256x128_S500000x128_1_0_0_1_n_n_wf : DotDims.WF S500000x256 S256x128 S500000x128 [1] [0] [0] [1] [] []
  scatter_S50000x128_S500000x1_S500000x128_1_0_0_1_wf : ScatterDims.WF S50000x128 S500000x1 S500000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.Layer.lean ====
/-
  One round of message passing on a graph, as functions on the extended reals.

  Every edge feeds a two-layer perceptron with three 128-wide rows (the features of its two end nodes and its own),
  every node one with two (its features and the sum of the messages that reach it). A hidden unit is
  `max (contraction + bias) 0`; the contraction of the joined 384-wide (256-wide) row against a weight matrix is the
  sum of the contractions of the 128-wide rows against the matrix's consecutive 128-row bands. That is a regrouping
  of one finite sum, so it holds on the extended reals with no finiteness assumption.

  The array functions are generic in the number of rows: an entry depends on ONE row of each row-wise operand, so a
  block of rows of the result is the same function of the operands' blocks of rows.
-/
import Idealize.ShloMosaic.Lib.ValueIdx
import proofs.«128783_j25134148616718_2_alg».proof.Proof.LibSumBlocks

noncomputable section

namespace Cert.MessagePassing

open Idealize.ShloMosaic Idealize.ShloMosaic.ValueIdx

/-- Row `k` of the `a`-th 128-row band of a matrix with 384 rows. -/
def row384 (a : Fin 3) (k : Fin 128) : Fin 384 := ⟨k.val + 128 * a.val, by have := a.isLt; have := k.isLt; omega⟩
/-- Row `k` of the `a`-th 128-row band of a matrix with 256 rows. -/
def row256 (a : Fin 2) (k : Fin 128) : Fin 256 := ⟨k.val + 128 * a.val, by have := a.isLt; have := k.isLt; omega⟩

/-- A sum of 384 terms, band by band. -/
theorem sum384 {A : Type*} [AddCommMonoid A] (f : Fin 384 → A) :
    ∑ k : Fin 384, f k = ((∑ k : Fin 128, f (row384 0 k)) + ∑ k : Fin 128, f (row384 1 k)) + ∑ k : Fin 128, f (row384 2 k) := by
  have h := Cert.SumBlocks.sum_blocks 3 128 f
  rw [Fin.sum_univ_three] at h
  exact h

/-- A sum of 256 terms, band by band. -/
theorem sum256 {A : Type*} [AddCommMonoid A] (f : Fin 256 → A) :
    ∑ k : Fin 256, f k = (∑ k : Fin 128, f (row256 0 k)) + ∑ k : Fin 128, f (row256 1 k) := by
  have h := Cert.SumBlocks.sum_blocks 2 128 f
  rw [Fin.sum_univ_two] at h
  exact h

/-- Hidden unit `h` of the edge perceptron on the rows `a`, `b`, `c`: each row against its band of the weight. -/
def hidden3 (a b c : Fin 128 → EReal) (w : (⟨2, ![384, 256]⟩ : Shape).Idx → EReal) (bias : Fin 256 → EReal) (h : Fin 256) : EReal :=
  max ((((∑ k : Fin 128, a k * w (ix2 (row384 0 k) h)) + ∑ k : Fin 128, b k * w (ix2 (row384 1 k) h))
    + ∑ k : Fin 128, c k * w (ix2 (row384 2 k) h)) + bias h) 0

/-- Hidden unit `h` of the node perceptron on the rows `a`, `b`. -/
def hidden2 (a b : Fin 128 → EReal) (w : (⟨2, ![256, 256]⟩ : Shape).Idx → EReal) (bias : Fin 256 → EReal) (h : Fin 256) : EReal :=
  max (((∑ k : Fin 128, a k * w (ix2 (row256 0 k) h)) + ∑ k : Fin 128, b k * w (ix2 (row256 1 k) h)) + bias h) 0

/-- Output unit `d` of a perceptron with hidden activations `hid`. -/
def readout (hid : Fin 256 → EReal) (w : (⟨2, ![256, 128]⟩ : Shape).Idx → EReal) (bias : Fin 128 → EReal) (d : Fin 128) : EReal :=
  (∑ h : Fin 256, hid h * w (ix2 h d)) + bias d

/-- A vector laid out as a matrix of one row. -/
def asRow {n : ℕ} (v : (⟨1, ![n]⟩ : Shape).Idx → EReal) : (⟨2, ![1, n]⟩ : Shape).Idx → EReal := fun i => v (ix1 (i 1))

/-- Entry `(r, d)` of the edge model's result. -/
def edgeAt {M : ℕ} (xr xc ea : (⟨2, ![M, 128]⟩ : Shape).Idx → EReal) (w1 : (⟨2, ![384, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) (r : Fin M) (d : Fin 128) : EReal :=
  readout (hidden3 (fun k => xr (ix2 r k)) (fun k => xc (ix2 r k)) (fun k => ea (ix2 r k)) w1 (fun h => b1 (ix2 0 h)))
    w2 (fun d => b2 (ix2 0 d)) d

/-- The edge model's result array. -/
def edgeOut {M : ℕ} (xr xc ea : (⟨2, ![M, 128]⟩ : Shape).Idx → EReal) (w1 : (⟨2, ![384, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) : (⟨2, ![M, 128]⟩ : Shape).Idx → EReal :=
  fun i => edgeAt xr xc ea w1 b1 w2 b2 (i 0) (i 1)

/-- Entry `(r, d)` of the node model's result. -/
def nodeAt {M : ℕ} (x agg : (⟨2, ![M, 128]⟩ : Shape).Idx → EReal) (w1 : (⟨2, ![256, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) (r : Fin M) (d : Fin 128) : EReal :=
  readout (hidden2 (fun k => x (ix2 r k)) (fun k => agg (ix2 r k)) w1 (fun h => b1 (ix2 0 h)))
    w2 (fun d => b2 (ix2 0 d)) d

/-- The node model's result array. -/
def nodeOut {M : ℕ} (x agg : (⟨2, ![M, 128]⟩ : Shape).Idx → EReal) (w1 : (⟨2, ![256, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) : (⟨2, ![M, 128]⟩ : Shape).Idx → EReal :=
  fun i => nodeAt x agg w1 b1 w2 b2 (i 0) (i 1)

/-- An entry of the edge model's result depends on row `r` of each row-wise operand only: arrays whose rows `r`
    and `r'` agree give the same entry. -/
theorem edgeAt_rows {M M' : ℕ} (xr xc ea : (⟨2, ![M, 128]⟩ : Shape).Idx → EReal) (xr' xc' ea' : (⟨2, ![M', 128]⟩ : Shape).Idx → EReal)
    (w1 : (⟨2, ![384, 256]⟩ : Shape).Idx → EReal) (b1 : (⟨2, ![1, 256]⟩ : Shape).Idx → EReal)
    (w2 : (⟨2, ![256, 128]⟩ : Shape).Idx → EReal) (b2 : (⟨2, ![1, 128]⟩ : Shape).Idx → EReal) (r : Fin M) (r' : Fin M') (d : Fin 128)
    (hr : ∀ k, xr (ix2 r k) = xr' (ix2 r' k)) (hc : ∀ k, xc (ix2 r k) = xc' (ix2 r' k)) (he : ∀ k, ea (ix2 r k) = ea' (ix2 r' k)) :
    edgeAt xr xc ea w1 b1 w2 b2 r d = edgeAt xr' xc' ea' w1 b1 w2 b2 r' d := by
  unfold edgeAt
  rw [funext hr, funext hc, funext he]

/-- The same for the node model. -/
theorem nodeAt_rows {M M' : ℕ} (x agg : (⟨2, ![M, 128]⟩ : Shape).Idx → EReal) (x' agg' : (⟨2, ![M', 128]⟩ : Shape).Idx → EReal)
    (w1 : (⟨2, ![256, 256]⟩ : Shape).Idx → EReal) (b1 : (⟨2, ![1, 256]⟩ : Shape).Idx → EReal)
    (w2 : (⟨2, ![256, 128]⟩ : Shape).Idx → EReal) (b2 : (⟨2, ![1, 128]⟩ : Shape).Idx → EReal) (r : Fin M) (r' : Fin M') (d : Fin 128)
    (hx : ∀ k, x (ix2 r k) = x' (ix2 r' k)) (ha : ∀ k, agg (ix2 r k) = agg' (ix2 r' k)) :
    nodeAt x agg w1 b1 w2 b2 r d = nodeAt x' agg' w1 b1 w2 b2 r' d := by
  unfold nodeAt
  rw [funext hx, funext ha]

/-- The joined 384-wide row `cat` against the whole weight: where `cat` is `a`, `b`, `c` laid end to end, the hidden
    unit of the joined row is the hidden unit of the three rows. -/
theorem hidden3_joined (cat : Fin 384 → EReal) (a b c : Fin 128 → EReal) (w : (⟨2, ![384, 256]⟩ : Shape).Idx → EReal)
    (bias : Fin 256 → EReal) (h : Fin 256) (h0 : ∀ k, cat (row384 0 k) = a k) (h1 : ∀ k, cat (row384 1 k) = b k)
    (h2 : ∀ k, cat (row384 2 k) = c k) :
    max ((∑ k : Fin 384, cat k * w (ix2 k h)) + bias h) 0 = hidden3 a b c w bias h := by
  unfold hidden3
  rw [sum384]
  simp only [h0, h1, h2]

/-- The joined 256-wide row likewise. -/
theorem hidden2_joined (cat : Fin 256 → EReal) (a b : Fin 128 → EReal) (w : (⟨2, ![256, 256]⟩ : Shape).Idx → EReal)
    (bias : Fin 256 → EReal) (h : Fin 256) (h0 : ∀ k, cat (row256 0 k) = a k) (h1 : ∀ k, cat (row256 1 k) = b k) :
    max ((∑ k : Fin 256, cat k * w (ix2 k h)) + bias h) 0 = hidden2 a b w bias h := by
  unfold hidden2
  rw [sum256]
  simp only [h0, h1]

end Cert.MessagePassing

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.EdgeBody.lean ====
/-
  The edge kernel's body at one entry.

  The body loads three blocks of 4000 rows (the features of an edge's two end nodes, and the edge's own), the three
  128-row bands of the first weight matrix, the second weight matrix and the two biases; multiplies each block by
  its band, adds the three products and the bias, clamps at zero, multiplies by the second matrix and adds its bias.
  Read at entry `(r, d)` of the block this is the edge perceptron of row `r` of the three blocks: the matrix unit
  accumulating into zero is the plain contraction, a change of float format is the identity on the extended reals,
  and a one-row bias broadcast down the rows reads the row.
-/
import proofs.«128783_j25134148616718_2_alg».proof.Proof.Gen.KernelIdeal.Frame
import proofs.«128783_j25134148616718_2_alg».proof.Proof.Layer
import proofs.«128783_j25134148616718_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Cert.KernelIdeal Cert.KernelIdeal.Gen Cert.MessagePassing Idealize.ShloMosaic Idealize.ShloMosaic.ValueIdx

/-- A block of 4000 rows times a band of the first weight, at `(r, h)`. -/
theorem rows_times_band (a : FVec Ideal S4000x128 .bf16) (b : FVec Ideal S128x256 .bf16) (r : Fin 4000) (h : Fin 256) :
    matmul dot_S4000x128_S128x256_S4000x256_1_0_0_1_n_n none a b (constant (F := Ideal) S4000x256 .f32 0x00000000#32) (ix2 r h)
      = ∑ k : Fin 128, a (ix2 r k) * b (ix2 k h) :=
  Cert.Sage.matmul_plain_zero_apply none a b r h

/-- The hidden activations times the second weight, at `(r, d)`. -/
theorem hidden_times_weight (a : FVec Ideal S4000x256 .bf16) (b : FVec Ideal S256x128 .bf16) (r : Fin 4000) (d : Fin 128) :
    matmul dot_S4000x256_S256x128_S4000x128_1_0_0_1_n_n none a b (constant (F := Ideal) S4000x128 .f32 0x00000000#32) (ix2 r d)
      = ∑ h : Fin 256, a (ix2 r h) * b (ix2 h d) :=
  Cert.Sage.matmul_plain_zero_apply none a b r d

/-- The clamp's zero. -/
theorem zero_word : Scalar.ofBits (F := Ideal) .f32 0x00000000#32 = 0 := Ideal.ofBits_zero_f32

/-- The body's stored value at `(r, d)`, over the nine loaded values. -/
theorem pay_at (v0 v2 v4 : Vec Ideal S4000x128 .bf16) (v6 v8 v10 : Vec Ideal S128x256 .bf16) (v17 : Vec Ideal S1x256 .f32)
    (v24 : Vec Ideal S256x128 .bf16) (v27 : Vec Ideal S1x128 .f32) (r : Fin 4000) (d : Fin 128) :
    k0_pay1 (F := Ideal) v0 v2 v4 v6 v8 v10 v17 v24 v27 (ix2 r d)
      = readout (fun h => max ((((∑ k : Fin 128, v0 (ix2 r k) * v6 (ix2 k h)) + ∑ k : Fin 128, v2 (ix2 r k) * v8 (ix2 k h))
          + ∑ k : Fin 128, v4 (ix2 r k) * v10 (ix2 k h)) + v17 (ix2 0 h)) 0) v24 (fun d => v27 (ix2 0 d)) d := by
  unfold k0_pay1 readout
  simp only [shapeCast_self, addf_apply, hidden_times_weight, truncf_apply, maximumf_apply, rows_times_band,
    broadcastTo_1b_ab_apply, broadcast_apply, zero_word]

end Cert.KernelIdeal.EdgeBody

end
-- ==== Proof.EdgeArray.lean ====
/-
  The edge region's array after all its points.

  Point `t` of the 125 stages rows `4000 t … 4000 t + 3999` of the three row-wise operands and of the result, and the
  whole of the weights and biases. So what point `t` writes back is the block of rows `4000 t …` of ONE function of the
  arrays the region finds: the edge perceptron row by row. The blocks tile the 500000 rows, so the array ends holding
  that function.
-/
import proofs.«128783_j25134148616718_2_alg».proof.Proof.EdgeBody

set_option maxRecDepth 16384

noncomputable section

namespace Cert.KernelIdeal.EdgeArray

open Cert.KernelIdeal Cert.KernelIdeal.Gen Cert.MessagePassing Idealize.ShloMosaic Idealize.ShloMosaic.ValueIdx Idealize.ShloMosaic.TcCoe
open Idealize.ShloMosaic.Pipeline (Dat Cfg Window)

/-- Every operand of the perceptron at an entry may be replaced by one that agrees with it where the entry reads it:
    row `r` of the row-wise operands, everything of the weights and biases. -/
theorem edgeAt_congr {M M' : ℕ} (xr xc ea : (⟨2, ![M, 128]⟩ : Shape).Idx → EReal) (xr' xc' ea' : (⟨2, ![M', 128]⟩ : Shape).Idx → EReal)
    (w1 w1' : (⟨2, ![384, 256]⟩ : Shape).Idx → EReal) (b1 b1' : (⟨2, ![1, 256]⟩ : Shape).Idx → EReal)
    (w2 w2' : (⟨2, ![256, 128]⟩ : Shape).Idx → EReal) (b2 b2' : (⟨2, ![1, 128]⟩ : Shape).Idx → EReal) (r : Fin M) (r' : Fin M') (d : Fin 128)
    (hr : ∀ k, xr (ix2 r k) = xr' (ix2 r' k)) (hc : ∀ k, xc (ix2 r k) = xc' (ix2 r' k)) (he : ∀ k, ea (ix2 r k) = ea' (ix2 r' k))
    (hw1 : ∀ i, w1 i = w1' i) (hb1 : ∀ i, b1 i = b1' i) (hw2 : ∀ i, w2 i = w2' i) (hb2 : ∀ i, b2 i = b2' i) :
    edgeAt xr xc ea w1 b1 w2 b2 r d = edgeAt xr' xc' ea' w1' b1' w2' b2' r' d := by
  obtain rfl : w1 = w1' := funext hw1
  obtain rfl : b1 = b1' := funext hb1
  obtain rfl : w2 = w2' := funext hw2
  obtain rfl : b2 = b2' := funext hb2
  exact edgeAt_rows xr xc ea xr' xc' ea' w1 b1 w2 b2 r r' d hr hc he

/-- A load of band `a` of the first weight reads rows `128 a …`. -/
theorem band0 (x3 : Vec Ideal S384x256 .bf16) (k : Fin 128) (h : Fin 256) :
    View.ld (Val := Elt Ideal) x3 r0_1 (ix2 k h) = x3 (ix2 (row384 0 k) h) := by
  refine congrArg x3 (funext fun a => Fin.ext ?_)
  match a with
  | ⟨0, _⟩ => show 0 + 1 * k.val = k.val + 128 * 0; omega
  | ⟨1, _⟩ => show 0 + 1 * h.val = h.val; omega
theorem band1 (x3 : Vec Ideal S384x256 .bf16) (k : Fin 128) (h : Fin 256) :
    View.ld (Val := Elt Ideal) x3 r0_2 (ix2 k h) = x3 (ix2 (row384 1 k) h) := by
  refine congrArg x3 (funext fun a => Fin.ext ?_)
  match a with
  | ⟨0, _⟩ => show 128 + 1 * k.val = k.val + 128 * 1; omega
  | ⟨1, _⟩ => show 0 + 1 * h.val = h.val; omega
theorem band2 (x3 : Vec Ideal S384x256 .bf16) (k : Fin 128) (h : Fin 256) :
    View.ld (Val := Elt Ideal) x3 r0_3 (ix2 k h) = x3 (ix2 (row384 2 k) h) := by
  refine congrArg x3 (funext fun a => Fin.ext ?_)
  match a with
  | ⟨0, _⟩ => show 256 + 1 * k.val = k.val + 128 * 2; omega
  | ⟨1, _⟩ => show 0 + 1 * h.val = h.val; omega

/-- The body's stored value at `(r, d)` over loaded bands known entry by entry. -/
theorem pay_bands (v0 v2 v4 : Vec Ideal S4000x128 .bf16) (v6 v8 v10 : Vec Ideal S128x256 .bf16) (v17 : Vec Ideal S1x256 .f32)
    (v24 : Vec Ideal S256x128 .bf16) (v27 : Vec Ideal S1x128 .f32) (r : Fin 4000) (d : Fin 128)
    (a6 a8 a10 : Fin 128 → Fin 256 → EReal) (h6 : ∀ k h, v6 (ix2 k h) = a6 k h) (h8 : ∀ k h, v8 (ix2 k h) = a8 k h)
    (h10 : ∀ k h, v10 (ix2 k h) = a10 k h) :
    k0_pay1 (F := Ideal) v0 v2 v4 v6 v8 v10 v17 v24 v27 (ix2 r d)
      = readout (fun h => max ((((∑ k : Fin 128, v0 (ix2 r k) * a6 k h) + ∑ k : Fin 128, v2 (ix2 r k) * a8 k h)
          + ∑ k : Fin 128, v4 (ix2 r k) * a10 k h) + v17 (ix2 0 h)) 0) v24 (fun d => v27 (ix2 0 d)) d := by
  rw [EdgeBody.pay_at]
  simp only [h6, h8, h10]

/-- The body's stored value at `(r, d)`, over the seven staged blocks: the edge perceptron of their rows `r`. -/
theorem block_entry (x0 x1 x2 : Vec Ideal S4000x128 .bf16) (x3 : Vec Ideal S384x256 .bf16) (x4 : Vec Ideal S1x256 .f32)
    (x5 : Vec Ideal S256x128 .bf16) (x6 : Vec Ideal S1x128 .f32) (r : Fin 4000) (d : Fin 128) :
    k0_pay1 (F := Ideal) x0 x1 x2 (View.ld (Val := Elt Ideal) x3 r0_1) (View.ld (Val := Elt Ideal) x3 r0_2)
        (View.ld (Val := Elt Ideal) x3 r0_3) x4 x5 x6 (ix2 r d)
      = edgeAt (M := 4000) x0 x1 x2 x3 x4 x5 x6 r d :=
  pay_bands x0 x1 x2 _ _ _ x4 x5 x6 r d (fun k h => x3 (ix2 (row384 0 k) h)) (fun k h => x3 (ix2 (row384 1 k) h))
    (fun k h => x3 (ix2 (row384 2 k) h)) (band0 x3) (band1 x3) (band2 x3)

theorem hz : (![0, 0] : Fin 2 → Nat) = fun _ => 0 := funext fun a => by fin_cases a <;> rfl

/-- The printed index maps, decided over the 125 points: the row-wise windows move with the point on the row axis,
    the others stay at their whole array. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (V : (c : Dev nD) → (b : Ref sig .tc) → Buf (Elt Ideal) ((c : Thread nD τ).loc b))

/-- The edge model of the arrays the region finds. -/
def result (c : Dev nD) : S500000x128.Idx → EReal :=
  edgeOut (M := 500000) (V c main_v12 : S500000x128.Idx → EReal) (V c main_v19 : S500000x128.Idx → EReal)
    (V c main_v5 : S500000x128.Idx → EReal) (V c main_v20 : S384x256.Idx → EReal) (V c main_v24 : S1x256.Idx → EReal)
    (V c main_v21 : S256x128.Idx → EReal) (V c main_v25 : S1x128.Idx → EReal)

/-- What point `t` writes back is block `t` of the edge model of the arrays the region finds. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S1x256) hz, View.ld_unit_zero (S := S256x128) hz,
    View.ld_unit_zero (S := S1x128) hz]
  obtain ⟨e70, e71, e00, e01, e10, e11, e20, e21, e30, e31, e40, e41, e50, e51, e60, e61⟩ := idx_facts t
  have ht : t.val < 125 := by have := t.isLt; have : cfg0.N = 125 := N_0; omega
  have key : ∀ (r : Fin 4000) (d : Fin 128),
      k0_pay1 (F := Ideal) (iblk0 V c 0 t) (iblk0 V c 1 t) (iblk0 V c 2 t) (View.ld (Val := Elt Ideal) (iblk0 V c 3 t) r0_1)
          (View.ld (Val := Elt Ideal) (iblk0 V c 3 t) r0_2) (View.ld (Val := Elt Ideal) (iblk0 V c 3 t) r0_3)
          (iblk0 V c 4 t) (iblk0 V c 5 t) (iblk0 V c 6 t) (ix2 r d)
        = result V c (((cfg0.win 7).blk t).view.emb (ix2 r d)) := by
    intro r d
    have hr : r.val < 4000 := r.isLt
    refine (block_entry (iblk0 V c 0 t) (iblk0 V c 1 t) (iblk0 V c 2 t) (iblk0 V c 3 t) (iblk0 V c 4 t) (iblk0 V c 5 t) (iblk0 V c 6 t) r d).trans ?_
    have hemb : ((cfg0.win 7).blk t).view.emb (ix2 r d)
        = ix2 (n0 := 500000) (n1 := 128) ⟨t.val * 4000 + r.val, by omega⟩ d := funext fun a => Fin.ext (by
      match a with
      | ⟨0, _⟩ => show win0_7.index t (0 : Fin 2) * 4000 + 1 * r.val = t.val * 4000 + r.val; rw [e70]; omega
      | ⟨1, _⟩ => show win0_7.index t (1 : Fin 2) * 128 + 1 * d.val = d.val; rw [e71]; omega)
    rw [hemb]
    show edgeAt (M := 4000) (iblk0 V c 0 t) (iblk0 V c 1 t) (iblk0 V c 2 t) (iblk0 V c 3 t) (iblk0 V c 4 t) (iblk0 V c 5 t) (iblk0 V c 6 t) r d
      = edgeAt (M := 500000) (V c main_v12 : S500000x128.Idx → EReal) (V c main_v19 : S500000x128.Idx → EReal)
          (V c main_v5 : S500000x128.Idx → EReal) (V c main_v20 : S384x256.Idx → EReal) (V c main_v24 : S1x256.Idx → EReal)
          (V c main_v21 : S256x128.Idx → EReal) (V c main_v25 : S1x128.Idx → EReal) ⟨t.val * 4000 + r.val, by omega⟩ d
    refine edgeAt_congr (iblk0 V c 0 t) (iblk0 V c 1 t) (iblk0 V c 2 t) (V c main_v12 : S500000x128.Idx → EReal)
      (V c main_v19 : S500000x128.Idx → EReal) (V c main_v5 : S500000x128.Idx → EReal) (iblk0 V c 3 t) (V c main_v20 : S384x256.Idx → EReal)
      (iblk0 V c 4 t) (V c main_v24 : S1x256.Idx → EReal) (iblk0 V c 5 t) (V c main_v21 : S256x128.Idx → EReal)
      (iblk0 V c 6 t) (V c main_v25 : S1x128.Idx → EReal) r ⟨t.val * 4000 + r.val, by omega⟩ d ?_ ?_ ?_ ?_ ?_ ?_ ?_
    · intro k
      show V c main_v12 (((cfg0.win 0).blk t).view.emb (ix2 r k)) = V c main_v12 (ix2 (n0 := 500000) (n1 := 128) ⟨t.val * 4000 + r.val, by omega⟩ k)
      refine congrArg (V c main_v12) (funext fun a => Fin.ext ?_)
      match a with
      | ⟨0, _⟩ => show win0_0.index t (0 : Fin 2) * 4000 + 1 * r.val = t.val * 4000 + r.val; rw [e00]; omega
      | ⟨1, _⟩ => show win0_0.index t (1 : Fin 2) * 128 + 1 * k.val = k.val; rw [e01]; omega
    · intro k
      show V c main_v19 (((cfg0.win 1).blk t).view.emb (ix2 r k)) = V c main_v19 (ix2 (n0 := 500000) (n1 := 128) ⟨t.val * 4000 + r.val, by omega⟩ k)
      refine congrArg (V c main_v19) (funext fun a => Fin.ext ?_)
      match a with
      | ⟨0, _⟩ => show win0_1.index t (0 : Fin 2) * 4000 + 1 * r.val = t.val * 4000 + r.val; rw [e10]; omega
      | ⟨1, _⟩ => show win0_1.index t (1 : Fin 2) * 128 + 1 * k.val = k.val; rw [e11]; omega
    · intro k
      show V c main_v5 (((cfg0.win 2).blk t).view.emb (ix2 r k)) = V c main_v5 (ix2 (n0 := 500000) (n1 := 128) ⟨t.val * 4000 + r.val, by omega⟩ k)
      refine congrArg (V c main_v5) (funext fun a => Fin.ext ?_)
      match a with
      | ⟨0, _⟩ => show win0_2.index t (0 : Fin 2) * 4000 + 1 * r.val = t.val * 4000 + r.val; rw [e20]; omega
      | ⟨1, _⟩ => show win0_2.index t (1 : Fin 2) * 128 + 1 * k.val = k.val; rw [e21]; omega
    · intro i
      show V c main_v20 (((cfg0.win 3).blk t).view.emb i) = V c main_v20 i
      refine congrArg (V c main_v20) (funext fun a => Fin.ext ?_)
      match a with
      | ⟨0, _⟩ => show win0_3.index t (0 : Fin 2) * 384 + 1 * (i 0).val = (i 0).val; rw [e30]; omega
      | ⟨1, _⟩ => show win0_3.index t (1 : Fin 2) * 256 + 1 * (i 1).val = (i 1).val; rw [e31]; omega
    · intro i
      show V c main_v24 (((cfg0.win 4).blk t).view.emb i) = V c main_v24 i
      refine congrArg (V c main_v24) (funext fun a => Fin.ext ?_)
      match a with
      | ⟨0, _⟩ => show win0_4.index t (0 : Fin 2) * 1 + 1 * (i 0).val = (i 0).val; rw [e40]; omega
      | ⟨1, _⟩ => show win0_4.index t (1 : Fin 2) * 256 + 1 * (i 1).val = (i 1).val; rw [e41]; omega
    · intro i
      show V c main_v21 (((cfg0.win 5).blk t).view.emb i) = V c main_v21 i
      refine congrArg (V c main_v21) (funext fun a => Fin.ext ?_)
      match a with
      | ⟨0, _⟩ => show win0_5.index t (0 : Fin 2) * 256 + 1 * (i 0).val = (i 0).val; rw [e50]; omega
      | ⟨1, _⟩ => show win0_5.index t (1 : Fin 2) * 128 + 1 * (i 1).val = (i 1).val; rw [e51]; omega
    · intro i
      show V c main_v25 (((cfg0.win 6).blk t).view.emb i) = V c main_v25 i
      refine congrArg (V c main_v25) (funext fun a => Fin.ext ?_)
      match a with
      | ⟨0, _⟩ => show win0_6.index t (0 : Fin 2) * 1 + 1 * (i 0).val = (i 0).val; rw [e60]; omega
      | ⟨1, _⟩ => show win0_6.index t (1 : Fin 2) * 128 + 1 * (i 1).val = (i 1).val; rw [e61]; omega
  have key' : ∀ y : S4000x128.Idx,
      k0_pay1 (F := Ideal) (iblk0 V c 0 t) (iblk0 V c 1 t) (iblk0 V c 2 t) (View.ld (Val := Elt Ideal) (iblk0 V c 3 t) r0_1)
          (View.ld (Val := Elt Ideal) (iblk0 V c 3 t) r0_2) (View.ld (Val := Elt Ideal) (iblk0 V c 3 t) r0_3)
          (iblk0 V c 4 t) (iblk0 V c 5 t) (iblk0 V c 6 t) y
        = result V c (((cfg0.win 7).blk t).view.emb y) := by
    intro y
    obtain ⟨r, d, rfl⟩ : ∃ (r : Fin 4000) (d : Fin 128), y = ix2 r d := ⟨y 0, y 1, eq_ix2 y⟩
    exact key r d
  funext j
  exact key' j

/-- An index of the array is in point `t`'s block iff each coordinate is in the block's range on its axis. -/
theorem mem_blk (t : Fin cfg0.N) (i : S500000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v28).slice (win0_7.rect t)).set ↔ _
  rw [View.set_slice_whole, Rect.mem_set_unit]
  exact Iff.rfl

/-- Every row lies in the block of the point `row / 4000`. -/
theorem cover (i : S500000x128.Idx) : ∃ t : Fin cfg0.N, (cfg0.win 7).flush t = true ∧ i ∈ ((cfg0.win 7).blk t).view.set := by
  have hi0 : (i 0).val < 500000 := (i 0).isLt
  have hi1 : (i 1).val < 128 := (i 1).isLt
  have hN : cfg0.N = 125 := N_0
  let t : Fin cfg0.N := ⟨(i 0).val / 4000, by omega⟩
  obtain ⟨e70, e71, -⟩ := idx_facts t
  have htv : t.val = (i 0).val / 4000 := rfl
  refine ⟨t, flush0_7 t, ?_⟩
  rw [mem_blk]
  intro a
  match a with
  | ⟨0, _⟩ =>
    show win0_7.index t (0 : Fin 2) * 4000 ≤ (i 0).val ∧ (i 0).val < win0_7.index t (0 : Fin 2) * 4000 + 4000
    rw [e70, htv]; omega
  | ⟨1, _⟩ =>
    show win0_7.index t (1 : Fin 2) * 128 ≤ (i 1).val ∧ (i 1).val < win0_7.index t (1 : Fin 2) * 128 + 128
    rw [e71]; omega

/-- The edge result after the region: the edge model of the arrays the region finds. -/
theorem final (c : Dev nD) : (dat0 V c).arrAt 7 cfg0.N = result V c :=
  (dat0 V c).arrAt_eq_of_cover 7 (result V c) (fun t _ => flushed_eq V c t) cover

end Cert.KernelIdeal.EdgeArray

end
-- ==== Proof.RunExit.lean ====
/-
  The program's run, with every buffer named at the end.

  @main is a stretch of host operations, the edge region, a second stretch, the node region. The run's last thread
  state holds every unscoped buffer at the contents the fold through those four segments leaves, so every weakly fair
  execution ends with each such buffer at that fold. The edge result is not touched after its region, so it ends at
  what the edge region's write-backs leave; the node result ends at what the node region's leave.
-/
import proofs.«128783_j25134148616718_2_alg».proof.Proof.Gen.KernelIdeal.Frame

set_option maxRecDepth 16384

noncomputable section

namespace Cert.KernelIdeal.RunExit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the fold through the four segments leaves. -/
theorem run_exit : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- A TensorCore buffer that is not scoped ends at the fold's contents. -/
theorem mem_exit {r : PUnit × MemSt nD τ sig (Elt F)} (h : ∀ c : Dev nD, ∀ b ∈ Pipeline.ucRefs τ sig, r.2.mem (((c : Thread nD τ)).1, b) = W4 m ρ c b)
    (c : Dev nD) (b : Ref sig .tc) (hb : ¬ (Proc.devRef .tc b : DevRef τ sig).isScoped) :
    r.2.mem ((c.tc : Thread nD τ).loc b) = W4 m ρ c (Proc.devRef .tc b) :=
  h c _ (mem_uc b hb)

/-- The node result ends at what the node region's write-backs leave. -/
theorem exit_main_v33 (c : Dev nD) : W4 m ρ c (Proc.devRef .tc main_v33) = (dat1 (V3 m ρ) c).arrAt 6 cfg1.N :=
  W4_arr m ρ c 6

/-- The edge result is no array of the node region and no host operation after the edge region writes it: it ends at
    what the edge region's write-backs leave. -/
theorem exit_main_v28 (c : Dev nD) : W4 m ρ c (Proc.devRef .tc main_v28) = (dat0 (V1 m ρ) c).arrAt 7 cfg0.N :=
  calc W4 m ρ c (Proc.devRef .tc main_v28)
    _ = W3 m ρ c (Proc.devRef .tc main_v28) := W4_of_ne m ρ c main_v28 (by decide)
    _ = W2 m ρ c (Proc.devRef .tc main_v28) := StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 7 cfg0.N := W2_arr m ρ c 7

end Cert.KernelIdeal.RunExit

end
-- ==== Proof.Reference.lean ====
/-
  The reference program's two result stages, index by index, as the message-passing layer's functions.

  The edge stage joins three 128-wide rows (the features of an edge's two end nodes and the edge's own) into one
  384-wide row, contracts it against a 384 x 256 weight, adds a bias, clamps at zero, contracts the 256 hidden
  activations against a 256 x 128 weight and adds a second bias. The node stage does the same with two rows (a node's
  features and the sum of the messages that reach it) and a 256 x 256 first weight.

  Read at an entry (r, d), every operation but the joining is pointwise or a finite sum, and the index functions of
  the contractions and of the bias broadcasts are the evident ones: row r and summation index k on the left, k and
  the column on the right, the column alone for a bias. The joined array read at column `k + 128 a` of row r is piece
  `a` at column k of row r, because that column lies in the a-th span of 128 along the joined axis. The 384-term
  (256-term) contraction then regroups into the three (two) 128-term contractions against the weight's row bands,
  and the clamp against the zero word is the maximum with 0. The stages that pick the end-node rows and that sum
  the messages are never opened: they enter only as the arrays they produce.
-/
import proofs.«128783_j25134148616718_2_alg».proof.Proof.Gen.ReferenceIdeal.Read
import proofs.«128783_j25134148616718_2_alg».proof.Proof.Layer
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Read Cert.MessagePassing Idealize.ShloMosaic Idealize.ShloMosaic.ValueIdx

/-- The joined 384-wide array read in its first band: the first piece, at the same row and column. -/
theorem cat3_piece0 (p0 p1 p2 : (⟨S500000x128, .f32⟩ : BufTy).Contents (Elt Ideal)) (r : Fin 500000) (k : Fin 128) :
    concatenate S500000x384 1 [⟨S500000x128, p0⟩, ⟨S500000x128, p1⟩, ⟨S500000x128, p2⟩]
      Gen.concatenates_S500000x128_S500000x128_S500000x128_S500000x384_d1 (ix2 r (row384 0 k)) = p0 (ix2 r k) := by
  refine concatenate_apply_piece (1 : Fin S500000x384.rank) _ _ (ix2 r (row384 0 k)) 0 (by show 0 < 3; omega) S500000x128 p0 rfl rfl 0 rfl
    (ix2 r k) ?_ ?_
  · intro b hb
    match b with
    | ⟨0, _⟩ => rfl
    | ⟨1, _⟩ => exact absurd rfl hb
  · show 0 + k.val = k.val + 128 * 0
    omega

/-- The joined 384-wide array read in its second band: the second piece. -/
theorem cat3_piece1 (p0 p1 p2 : (⟨S500000x128, .f32⟩ : BufTy).Contents (Elt Ideal)) (r : Fin 500000) (k : Fin 128) :
    concatenate S500000x384 1 [⟨S500000x128, p0⟩, ⟨S500000x128, p1⟩, ⟨S500000x128, p2⟩]
      Gen.concatenates_S500000x128_S500000x128_S500000x128_S500000x384_d1 (ix2 r (row384 1 k)) = p1 (ix2 r k) := by
  refine concatenate_apply_piece (1 : Fin S500000x384.rank) _ _ (ix2 r (row384 1 k)) 1 (by show 1 < 3; omega) S500000x128 p1 rfl rfl 128 rfl
    (ix2 r k) ?_ ?_
  · intro b hb
    match b with
    | ⟨0, _⟩ => rfl
    | ⟨1, _⟩ => exact absurd rfl hb
  · show 128 + k.val = k.val + 128 * 1
    omega

/-- The joined 384-wide array read in its third band: the third piece. -/
theorem cat3_piece2 (p0 p1 p2 : (⟨S500000x128, .f32⟩ : BufTy).Contents (Elt Ideal)) (r : Fin 500000) (k : Fin 128) :
    concatenate S500000x384 1 [⟨S500000x128, p0⟩, ⟨S500000x128, p1⟩, ⟨S500000x128, p2⟩]
      Gen.concatenates_S500000x128_S500000x128_S500000x128_S500000x384_d1 (ix2 r (row384 2 k)) = p2 (ix2 r k) := by
  refine concatenate_apply_piece (1 : Fin S500000x384.rank) _ _ (ix2 r (row384 2 k)) 2 (by show 2 < 3; omega) S500000x128 p2 rfl rfl 256 rfl
    (ix2 r k) ?_ ?_
  · intro b hb
    match b with
    | ⟨0, _⟩ => rfl
    | ⟨1, _⟩ => exact absurd rfl hb
  · show 256 + k.val = k.val + 128 * 2
    omega

/-- The first product's left read index, by coordinates. -/
theorem lidx19 (r : Fin 500000) (h : Fin 256) (k : Fin 384) : lidx_main_v19 (ix2 r h) k = ix2 r k :=
  funext fun a => Fin.ext (by match a with | ⟨0, _⟩ => rfl | ⟨1, _⟩ => rfl)
/-- The first product's right read index, by coordinates. -/
theorem ridx19 (r : Fin 500000) (h : Fin 256) (k : Fin 384) : ridx_main_v19 (ix2 r h) k = ix2 k h :=
  funext fun a => Fin.ext (by match a with | ⟨0, _⟩ => rfl | ⟨1, _⟩ => rfl)
/-- The first bias, broadcast along the rows, is read at the column. -/
theorem bidx21 (r : Fin 500000) (h : Fin 256) : idx_main_v20 (idx_main_v21 (ix2 r h)) = ix1 h :=
  funext fun a => Fin.ext (by match a with | ⟨0, _⟩ => rfl)
/-- The second product's left read index, by coordinates. -/
theorem lidx24 (r : Fin 500000) (d : Fin 128) (k : Fin 256) : lidx_main_v24 (ix2 r d) k = ix2 r k :=
  funext fun a => Fin.ext (by match a with | ⟨0, _⟩ => rfl | ⟨1, _⟩ => rfl)
/-- The second product's right read index, by coordinates. -/
theorem ridx24 (r : Fin 500000) (d : Fin 128) (k : Fin 256) : ridx_main_v24 (ix2 r d) k = ix2 k d :=
  funext fun a => Fin.ext (by match a with | ⟨0, _⟩ => rfl | ⟨1, _⟩ => rfl)
/-- The second bias, broadcast along the rows, is read at the column. -/
theorem bidx26 (r : Fin 500000) (d : Fin 128) : idx_main_v25 (idx_main_v26 (ix2 r d)) = ix1 d :=
  funext fun a => Fin.ext (by match a with | ⟨0, _⟩ => rfl)

/-- A hidden activation of the edge stage: the joined row against the weight, plus the bias, clamped at zero, is the
    hidden unit of the three rows it joins. -/
theorem edge_hidden (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (r : Fin 500000) (h : Fin 256) :
    val_main_v23 (F := Ideal) x0 x1 x2 x3 x4 (ix2 r h)
      = hidden3 (fun k => val_main_v10 (F := Ideal) x0 x1 (ix2 r k)) (fun k => val_main_v17 (F := Ideal) x0 x1 (ix2 r k))
          (fun k => x2 (ix2 r k)) x3 (fun h => asRow x4 (ix2 0 h)) h := by
  rw [val_main_v23_apply, val_main_v22_apply, val_main_v19_apply, val_main_v21_apply, val_main_v20_apply,
    val_main_call0_v0_apply, val_main_call0_cst_apply]
  simp only [Ideal.maximumf_def, Ideal.addf_def, Ideal.ofBits_def, Ideal.ofBits_zero_f32, lidx19, ridx19, bidx21]
  refine hidden3_joined (fun k => val_main_v18 (F := Ideal) x0 x1 x2 (ix2 r k)) _ _ _ x3 (fun h => asRow x4 (ix2 0 h)) h ?_ ?_ ?_
  · intro k
    show val_main_v18 (F := Ideal) x0 x1 x2 (ix2 r (row384 0 k)) = _
    unfold val_main_v18
    generalize val_main_v10 (F := Ideal) x0 x1 = p0
    generalize val_main_v17 (F := Ideal) x0 x1 = p1
    exact cat3_piece0 p0 p1 x2 r k
  · intro k
    show val_main_v18 (F := Ideal) x0 x1 x2 (ix2 r (row384 1 k)) = _
    unfold val_main_v18
    generalize val_main_v10 (F := Ideal) x0 x1 = p0
    generalize val_main_v17 (F := Ideal) x0 x1 = p1
    exact cat3_piece1 p0 p1 x2 r k
  · intro k
    show val_main_v18 (F := Ideal) x0 x1 x2 (ix2 r (row384 2 k)) = _
    unfold val_main_v18
    generalize val_main_v10 (F := Ideal) x0 x1 = p0
    generalize val_main_v17 (F := Ideal) x0 x1 = p1
    exact cat3_piece2 p0 p1 x2 r k

/-- The edge stage of the reference is the edge model of the gathered end-node rows and the edge's own row. -/
theorem edge_eq (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) :
    val_main_v27 (F := Ideal) x0 x1 x2 x3 x4 x5 x6
      = edgeOut (val_main_v10 (F := Ideal) x0 x1) (val_main_v17 (F := Ideal) x0 x1) x2 x3 (asRow x4) x5 (asRow x6) := by
  funext i
  obtain ⟨r, d, rfl⟩ : ∃ (r : Fin 500000) (d : Fin 128), i = ix2 r d := ⟨i 0, i 1, eq_ix2 i⟩
  rw [val_main_v27_apply, val_main_v24_apply, val_main_v26_apply, val_main_v25_apply]
  simp only [Ideal.addf_def, lidx24, ridx24, bidx26, edge_hidden]
  rfl

/-- The joined 256-wide array read in its first band: the first piece, at the same row and column. -/
theorem cat2_piece0 (p0 p1 : (⟨S50000x128, .f32⟩ : BufTy).Contents (Elt Ideal)) (r : Fin 50000) (k : Fin 128) :
    concatenate S50000x256 1 [⟨S50000x128, p0⟩, ⟨S50000x128, p1⟩]
      Gen.concatenates_S50000x128_S50000x128_S50000x256_d1 (ix2 r (row256 0 k)) = p0 (ix2 r k) := by
  refine concatenate_apply_piece (1 : Fin S50000x256.rank) _ _ (ix2 r (row256 0 k)) 0 (by show 0 < 2; omega) S50000x128 p0 rfl rfl 0 rfl
    (ix2 r k) ?_ ?_
  · intro b hb
    match b with
    | ⟨0, _⟩ => rfl
    | ⟨1, _⟩ => exact absurd rfl hb
  · show 0 + k.val = k.val + 128 * 0
    omega

/-- The joined 256-wide array read in its second band: the second piece. -/
theorem cat2_piece1 (p0 p1 : (⟨S50000x128, .f32⟩ : BufTy).Contents (Elt Ideal)) (r : Fin 50000) (k : Fin 128) :
    concatenate S50000x256 1 [⟨S50000x128, p0⟩, ⟨S50000x128, p1⟩]
      Gen.concatenates_S50000x128_S50000x128_S50000x256_d1 (ix2 r (row256 1 k)) = p1 (ix2 r k) := by
  refine concatenate_apply_piece (1 : Fin S50000x256.rank) _ _ (ix2 r (row256 1 k)) 1 (by show 1 < 2; omega) S50000x128 p1 rfl rfl 128 rfl
    (ix2 r k) ?_ ?_
  · intro b hb
    match b with
    | ⟨0, _⟩ => rfl
    | ⟨1, _⟩ => exact absurd rfl hb
  · show 128 + k.val = k.val + 128 * 1
    omega

/-- The third product's left read index, by coordinates. -/
theorem lidx32 (r : Fin 50000) (h : Fin 256) (k : Fin 256) : lidx_main_v32 (ix2 r h) k = ix2 r k :=
  funext fun a => Fin.ext (by match a with | ⟨0, _⟩ => rfl | ⟨1, _⟩ => rfl)
/-- The third product's right read index, by coordinates. -/
theorem ridx32 (r : Fin 50000) (h : Fin 256) (k : Fin 256) : ridx_main_v32 (ix2 r h) k = ix2 k h :=
  funext fun a => Fin.ext (by match a with | ⟨0, _⟩ => rfl | ⟨1, _⟩ => rfl)
/-- The third bias, broadcast along the rows, is read at the column. -/
theorem bidx34 (r : Fin 50000) (h : Fin 256) : idx_main_v33 (idx_main_v34 (ix2 r h)) = ix1 h :=
  funext fun a => Fin.ext (by match a with | ⟨0, _⟩ => rfl)
/-- The fourth product's left read index, by coordinates. -/
theorem lidx37 (r : Fin 50000) (d : Fin 128) (k : Fin 256) : lidx_main_v37 (ix2 r d) k = ix2 r k :=
  funext fun a => Fin.ext (by match a with | ⟨0, _⟩ => rfl | ⟨1, _⟩ => rfl)
/-- The fourth product's right read index, by coordinates. -/
theorem ridx37 (r : Fin 50000) (d : Fin 128) (k : Fin 256) : ridx_main_v37 (ix2 r d) k = ix2 k d :=
  funext fun a => Fin.ext (by match a with | ⟨0, _⟩ => rfl | ⟨1, _⟩ => rfl)
/-- The fourth bias, broadcast along the rows, is read at the column. -/
theorem bidx39 (r : Fin 50000) (d : Fin 128) : idx_main_v38 (idx_main_v39 (ix2 r d)) = ix1 d :=
  funext fun a => Fin.ext (by match a with | ⟨0, _⟩ => rfl)

/-- A hidden activation of the node stage: the joined row against the weight, plus the bias, clamped at zero, is the
    hidden unit of the two rows it joins, the node's features and the sum of the messages that reach it. -/
theorem node_hidden (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S256x256, .f32⟩ : BufTy).Contents (Elt Ideal)) (x8 : (⟨S256, .f32⟩ : BufTy).Contents (Elt Ideal)) (r : Fin 50000) (h : Fin 256) :
    val_main_v36 (F := Ideal) x0 x1 x2 x3 x4 x5 x6 x7 x8 (ix2 r h)
      = hidden2 (fun k => x0 (ix2 r k)) (fun k => val_main_v30 (F := Ideal) x0 x1 x2 x3 x4 x5 x6 (ix2 r k))
          x7 (fun h => asRow x8 (ix2 0 h)) h := by
  rw [val_main_v36_apply, val_main_v35_apply, val_main_v32_apply, val_main_v34_apply, val_main_v33_apply,
    val_main_call1_v0_apply, val_main_call1_cst_apply]
  simp only [Ideal.maximumf_def, Ideal.addf_def, Ideal.ofBits_def, Ideal.ofBits_zero_f32, lidx32, ridx32, bidx34]
  refine hidden2_joined (fun k => val_main_v31 (F := Ideal) x0 x1 x2 x3 x4 x5 x6 (ix2 r k)) _ _ x7 (fun h => asRow x8 (ix2 0 h)) h ?_ ?_
  · intro k
    show val_main_v31 (F := Ideal) x0 x1 x2 x3 x4 x5 x6 (ix2 r (row256 0 k)) = _
    unfold val_main_v31
    generalize val_main_v30 (F := Ideal) x0 x1 x2 x3 x4 x5 x6 = p1
    exact cat2_piece0 x0 p1 r k
  · intro k
    show val_main_v31 (F := Ideal) x0 x1 x2 x3 x4 x5 x6 (ix2 r (row256 1 k)) = _
    unfold val_main_v31
    generalize val_main_v30 (F := Ideal) x0 x1 x2 x3 x4 x5 x6 = p1
    exact cat2_piece1 x0 p1 r k

/-- The node stage of the reference is the node model of the node features and the summed messages. -/
theorem node_eq (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) :
    val_main_v40 (F := Ideal) x0 x1 x2 x3 x4 x5 x6 x7 x8 x9 x10
      = nodeOut x0 (val_main_v30 (F := Ideal) x0 x1 x2 x3 x4 x5 x6) x7 (asRow x8) x9 (asRow x10) := by
  funext i
  obtain ⟨r, d, rfl⟩ : ∃ (r : Fin 50000) (d : Fin 128), i = ix2 r d := ⟨i 0, i 1, eq_ix2 i⟩
  rw [val_main_v40_apply, val_main_v37_apply, val_main_v39_apply, val_main_v38_apply]
  simp only [Ideal.addf_def, lidx37, ridx37, bidx39, node_hidden]
  rfl

end Cert.ReferenceIdeal.Layer

end
-- ==== Proof.HostEdge.lean ====
/-
  What the edge region finds, and so the edge result.

  Before the edge region the host picks the two end-node rows of every edge out of the node features (the same two
  gathers, on the same indices, as the reference's), lays the biases out as one-row matrices and changes float
  formats, which is the identity on the extended reals. So the edge region finds exactly the operands of the
  reference's edge stage, and its result is that stage.
-/
import proofs.«128783_j25134148616718_2_alg».proof.Proof.EdgeArray
import proofs.«128783_j25134148616718_2_alg».proof.Proof.RunExit
import proofs.«128783_j25134148616718_2_alg».proof.Proof.Reference
import Idealize.ShloMosaic.Lib.StableHlo.Run
import Idealize.ShloMosaic.Lib.ValueLayout

set_option maxRecDepth 16384

noncomputable section

namespace Cert.KernelIdeal.HostValues

open Cert.KernelIdeal Cert.KernelIdeal.Gen Cert.MessagePassing Idealize.ShloMosaic Idealize.ShloMosaic.ValueIdx Idealize.ShloMosaic.TcCoe
open Idealize.ShloMosaic.StableHlo Idealize.SL.Sem
open Cert.ReferenceIdeal.Read (val_main_v3 val_main_v10 val_main_v17 val_main_v27 val_main_v30 val_main_v40)

/-- A vector reshaped to a one-row matrix is the vector laid out as a row. -/
theorem cast_asRow {n : ℕ} (v : (⟨1, ![n]⟩ : Shape).Idx → EReal) (h : (⟨1, ![n]⟩ : Shape).ShapeCasts ⟨2, ![1, n]⟩) :
    shapeCast ⟨2, ![1, n]⟩ v h = asRow v := by
  funext i
  obtain ⟨u, k, rfl⟩ : ∃ (u : Fin 1) (k : Fin n), i = ix2 u k := ⟨i 0, i 1, eq_ix2 i⟩
  exact shapeCast_a_1a_apply v h u k

variable (m : (ℓ : Loc nD τ sig) → Buf (Elt Ideal) ℓ) (ρ : Dev nD → PrngReg)

/-- The argument arrays at launch, typed as the reference's stages take them. -/
abbrev a0 (c : Dev nD) : (⟨Cert.ReferenceIdeal.S50000x128, .f32⟩ : BufTy).Contents (Elt Ideal) := m ((c : Thread nD τ).loc main_arg0)
abbrev a1 (c : Dev nD) : (⟨Cert.ReferenceIdeal.S2x500000, .i32⟩ : BufTy).Contents (Elt Ideal) := m ((c : Thread nD τ).loc main_arg1)
abbrev a2 (c : Dev nD) : (⟨Cert.ReferenceIdeal.S500000x128, .f32⟩ : BufTy).Contents (Elt Ideal) := m ((c : Thread nD τ).loc main_arg2)
abbrev a3 (c : Dev nD) : (⟨Cert.ReferenceIdeal.S384x256, .f32⟩ : BufTy).Contents (Elt Ideal) := m ((c : Thread nD τ).loc main_arg3)
abbrev a4 (c : Dev nD) : (⟨Cert.ReferenceIdeal.S256, .f32⟩ : BufTy).Contents (Elt Ideal) := m ((c : Thread nD τ).loc main_arg4)
abbrev a5 (c : Dev nD) : (⟨Cert.ReferenceIdeal.S256x128, .f32⟩ : BufTy).Contents (Elt Ideal) := m ((c : Thread nD τ).loc main_arg5)
abbrev a6 (c : Dev nD) : (⟨Cert.ReferenceIdeal.S128, .f32⟩ : BufTy).Contents (Elt Ideal) := m ((c : Thread nD τ).loc main_arg6)
abbrev a7 (c : Dev nD) : (⟨Cert.ReferenceIdeal.S256x256, .f32⟩ : BufTy).Contents (Elt Ideal) := m ((c : Thread nD τ).loc main_arg7)
abbrev a8 (c : Dev nD) : (⟨Cert.ReferenceIdeal.S256, .f32⟩ : BufTy).Contents (Elt Ideal) := m ((c : Thread nD τ).loc main_arg8)
abbrev a9 (c : Dev nD) : (⟨Cert.ReferenceIdeal.S256x128, .f32⟩ : BufTy).Contents (Elt Ideal) := m ((c : Thread nD τ).loc main_arg9)
abbrev a10 (c : Dev nD) : (⟨Cert.ReferenceIdeal.S128, .f32⟩ : BufTy).Contents (Elt Ideal) := m ((c : Thread nD τ).loc main_arg10)

/-! ## What the edge region finds -/

/-- The rows of the edges' first end nodes. -/
theorem edge_finds_first (c : Dev nD) :
    (V1 m ρ c main_v12 : S500000x128.Idx → EReal) = val_main_v10 (F := Ideal) (a0 m c) (a1 m c) := by
  show StableHlo.after hostOps0 (W0 m ρ c) (Proc.devRef .tc main_v12) = _
  after_results
  rfl
/-- The rows of the edges' second end nodes. -/
theorem edge_finds_second (c : Dev nD) :
    (V1 m ρ c main_v19 : S500000x128.Idx → EReal) = val_main_v17 (F := Ideal) (a0 m c) (a1 m c) := by
  show StableHlo.after hostOps0 (W0 m ρ c) (Proc.devRef .tc main_v19) = _
  after_results_simp
  rfl
/-- The edges' own rows. -/
theorem edge_finds_own (c : Dev nD) : (V1 m ρ c main_v5 : S500000x128.Idx → EReal) = a2 m c := by
  show StableHlo.after hostOps0 (W0 m ρ c) (Proc.devRef .tc main_v5) = _
  after_results
  rfl
/-- The first weight. -/
theorem edge_finds_w1 (c : Dev nD) : (V1 m ρ c main_v20 : S384x256.Idx → EReal) = a3 m c := by
  show StableHlo.after hostOps0 (W0 m ρ c) (Proc.devRef .tc main_v20) = _
  after_results
  rfl
/-- The first bias, as a row. -/
theorem edge_finds_b1 (c : Dev nD) : (V1 m ρ c main_v24 : S1x256.Idx → EReal) = asRow (a4 m c) := by
  show StableHlo.after hostOps0 (W0 m ρ c) (Proc.devRef .tc main_v24) = _
  after_results
  exact cast_asRow (n := 256) (a4 m c) shapeCasts_S256_S1x256
/-- The second weight. -/
theorem edge_finds_w2 (c : Dev nD) : (V1 m ρ c main_v21 : S256x128.Idx → EReal) = a5 m c := by
  show StableHlo.after hostOps0 (W0 m ρ c) (Proc.devRef .tc main_v21) = _
  after_results
  rfl
/-- The second bias, as a row. -/
theorem edge_finds_b2 (c : Dev nD) : (V1 m ρ c main_v25 : S1x128.Idx → EReal) = asRow (a6 m c) := by
  show StableHlo.after hostOps0 (W0 m ρ c) (Proc.devRef .tc main_v25) = _
  after_results
  exact cast_asRow (n := 128) (a6 m c) shapeCasts_S128_S1x128

/-- The edge result after its region is the reference's edge stage of the arguments. -/
theorem edge_value (c : Dev nD) :
    (dat0 (V1 m ρ) c).arrAt 7 cfg0.N
      = val_main_v27 (F := Ideal) (a0 m c) (a1 m c) (a2 m c) (a3 m c) (a4 m c) (a5 m c) (a6 m c) := by
  rw [EdgeArray.final (V1 m ρ) c]
  unfold EdgeArray.result
  rw [edge_finds_first, edge_finds_second, edge_finds_own, edge_finds_w1, edge_finds_b1, edge_finds_w2, edge_finds_b2]
  exact (Cert.ReferenceIdeal.Layer.edge_eq (a0 m c) (a1 m c) (a2 m c) (a3 m c) (a4 m c) (a5 m c) (a6 m c)).symm

/-- The edge result at the end of the run. -/
theorem exit_edge (c : Dev nD) :
    W4 m ρ c (Proc.devRef .tc main_v28)
      = val_main_v27 (F := Ideal) (a0 m c) (a1 m c) (a2 m c) (a3 m c) (a4 m c) (a5 m c) (a6 m c) :=
  (RunExit.exit_main_v28 m ρ c).trans (edge_value m ρ c)

end Cert.KernelIdeal.HostValues

end
-- ==== Proof.NodeBody.lean ====
/-
  The node kernel's body at one entry.

  The body loads two blocks of 2000 rows (the nodes' features and the messages summed at each node), the two 128-row
  bands of the first weight matrix, the second weight matrix and the two biases; read at entry `(r, d)` of the block
  it is the node perceptron of row `r` of the two blocks.
-/
import proofs.«128783_j25134148616718_2_alg».proof.Proof.Gen.KernelIdeal.Frame
import proofs.«128783_j25134148616718_2_alg».proof.Proof.Layer
import proofs.«128783_j25134148616718_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeBody

open Cert.KernelIdeal Cert.KernelIdeal.Gen Cert.MessagePassing Idealize.ShloMosaic Idealize.ShloMosaic.ValueIdx

/-- A block of 2000 rows times a band of the first weight, at `(r, h)`. -/
theorem rows_times_band (a : FVec Ideal S2000x128 .bf16) (b : FVec Ideal S128x256 .bf16) (r : Fin 2000) (h : Fin 256) :
    matmul dot_S2000x128_S128x256_S2000x256_1_0_0_1_n_n none a b (constant (F := Ideal) S2000x256 .f32 0x00000000#32) (ix2 r h)
      = ∑ k : Fin 128, a (ix2 r k) * b (ix2 k h) :=
  Cert.Sage.matmul_plain_zero_apply none a b r h

/-- The hidden activations times the second weight, at `(r, d)`. -/
theorem hidden_times_weight (a : FVec Ideal S2000x256 .bf16) (b : FVec Ideal S256x128 .bf16) (r : Fin 2000) (d : Fin 128) :
    matmul dot_S2000x256_S256x128_S2000x128_1_0_0_1_n_n none a b (constant (F := Ideal) S2000x128 .f32 0x00000000#32) (ix2 r d)
      = ∑ h : Fin 256, a (ix2 r h) * b (ix2 h d) :=
  Cert.Sage.matmul_plain_zero_apply none a b r d

/-- The clamp's zero. -/
theorem zero_word : Scalar.ofBits (F := Ideal) .f32 0x00000000#32 = 0 := Ideal.ofBits_zero_f32

/-- The body's stored value at `(r, d)`, over the seven loaded values. -/
theorem pay_at (v0 v2 : Vec Ideal S2000x128 .bf16) (v4 v6 : Vec Ideal S128x256 .bf16) (v11 : Vec Ideal S1x256 .f32)
    (v18 : Vec Ideal S256x128 .bf16) (v21 : Vec Ideal S1x128 .f32) (r : Fin 2000) (d : Fin 128) :
    k1_pay1 (F := Ideal) v0 v2 v4 v6 v11 v18 v21 (ix2 r d)
      = readout (fun h => max (((∑ k : Fin 128, v0 (ix2 r k) * v4 (ix2 k h)) + ∑ k : Fin 128, v2 (ix2 r k) * v6 (ix2 k h))
          + v11 (ix2 0 h)) 0) v18 (fun d => v21 (ix2 0 d)) d := by
  unfold k1_pay1 readout
  simp only [shapeCast_self, addf_apply, hidden_times_weight, truncf_apply, maximumf_apply, rows_times_band,
    broadcastTo_1b_ab_apply, broadcast_apply, zero_word]

end Cert.KernelIdeal.NodeBody

end
-- ==== Proof.NodeArray.lean ====
/-
  The node region's array after all its points.

  Point `t` of the 25 stages rows `2000 t … 2000 t + 1999` of the node features, of the summed messages and of the
  result, and the whole of the weights and biases. What point `t` writes back is the block of rows `2000 t …` of the
  node perceptron of the arrays the region finds, row by row; the blocks tile the 50000 rows.
-/
import proofs.«128783_j25134148616718_2_alg».proof.Proof.NodeBody

set_option maxRecDepth 16384

noncomputable section

namespace Cert.KernelIdeal.NodeArray

open Cert.KernelIdeal Cert.KernelIdeal.Gen Cert.MessagePassing Idealize.ShloMosaic Idealize.ShloMosaic.ValueIdx Idealize.ShloMosaic.TcCoe
open Idealize.ShloMosaic.Pipeline (Dat Cfg Window)

/-- Every operand of the perceptron at an entry may be replaced by one that agrees with it where the entry reads it. -/
theorem nodeAt_congr {M M' : ℕ} (x agg : (⟨2, ![M, 128]⟩ : Shape).Idx → EReal) (x' agg' : (⟨2, ![M', 128]⟩ : Shape).Idx → EReal)
    (w1 w1' : (⟨2, ![256, 256]⟩ : Shape).Idx → EReal) (b1 b1' : (⟨2, ![1, 256]⟩ : Shape).Idx → EReal)
    (w2 w2' : (⟨2, ![256, 128]⟩ : Shape).Idx → EReal) (b2 b2' : (⟨2, ![1, 128]⟩ : Shape).Idx → EReal) (r : Fin M) (r' : Fin M') (d : Fin 128)
    (hx : ∀ k, x (ix2 r k) = x' (ix2 r' k)) (ha : ∀ k, agg (ix2 r k) = agg' (ix2 r' k))
    (hw1 : ∀ i, w1 i = w1' i) (hb1 : ∀ i, b1 i = b1' i) (hw2 : ∀ i, w2 i = w2' i) (hb2 : ∀ i, b2 i = b2' i) :
    nodeAt x agg w1 b1 w2 b2 r d = nodeAt x' agg' w1' b1' w2' b2' r' d := by
  obtain rfl : w1 = w1' := funext hw1
  obtain rfl : b1 = b1' := funext hb1
  obtain rfl : w2 = w2' := funext hw2
  obtain rfl : b2 = b2' := funext hb2
  exact nodeAt_rows x agg x' agg' w1 b1 w2 b2 r r' d hx ha

/-- A load of band `a` of the first weight reads rows `128 a …`. -/
theorem band0 (x2 : Vec Ideal S256x256 .bf16) (k : Fin 128) (h : Fin 256) :
    View.ld (Val := Elt Ideal) x2 r1_1 (ix2 k h) = x2 (ix2 (row256 0 k) h) := by
  refine congrArg x2 (funext fun a => Fin.ext ?_)
  match a with
  | ⟨0, _⟩ => show 0 + 1 * k.val = k.val + 128 * 0; omega
  | ⟨1, _⟩ => show 0 + 1 * h.val = h.val; omega
theorem band1 (x2 : Vec Ideal S256x256 .bf16) (k : Fin 128) (h : Fin 256) :
    View.ld (Val := Elt Ideal) x2 r1_2 (ix2 k h) = x2 (ix2 (row256 1 k) h) := by
  refine congrArg x2 (funext fun a => Fin.ext ?_)
  match a with
  | ⟨0, _⟩ => show 128 + 1 * k.val = k.val + 128 * 1; omega
  | ⟨1, _⟩ => show 0 + 1 * h.val = h.val; omega

/-- The body's stored value at `(r, d)` over loaded bands known entry by entry. -/
theorem pay_bands (v0 v2 : Vec Ideal S2000x128 .bf16) (v4 v6 : Vec Ideal S128x256 .bf16) (v11 : Vec Ideal S1x256 .f32)
    (v18 : Vec Ideal S256x128 .bf16) (v21 : Vec Ideal S1x128 .f32) (r : Fin 2000) (d : Fin 128)
    (a4 a6 : Fin 128 → Fin 256 → EReal) (h4 : ∀ k h, v4 (ix2 k h) = a4 k h) (h6 : ∀ k h, v6 (ix2 k h) = a6 k h) :
    k1_pay1 (F := Ideal) v0 v2 v4 v6 v11 v18 v21 (ix2 r d)
      = readout (fun h => max (((∑ k : Fin 128, v0 (ix2 r k) * a4 k h) + ∑ k : Fin 128, v2 (ix2 r k) * a6 k h)
          + v11 (ix2 0 h)) 0) v18 (fun d => v21 (ix2 0 d)) d := by
  rw [NodeBody.pay_at]
  simp only [h4, h6]

/-- The body's stored value at `(r, d)`, over the six staged blocks: the node perceptron of their rows `r`. -/
theorem block_entry (x0 x1 : Vec Ideal S2000x128 .bf16) (x2 : Vec Ideal S256x256 .bf16) (x3 : Vec Ideal S1x256 .f32)
    (x4 : Vec Ideal S256x128 .bf16) (x5 : Vec Ideal S1x128 .f32) (r : Fin 2000) (d : Fin 128) :
    k1_pay1 (F := Ideal) x0 x1 (View.ld (Val := Elt Ideal) x2 r1_1) (View.ld (Val := Elt Ideal) x2 r1_2) x3 x4 x5 (ix2 r d)
      = nodeAt (M := 2000) x0 x1 x2 x3 x4 x5 r d :=
  pay_bands x0 x1 _ _ x3 x4 x5 r d (fun k h => x2 (ix2 (row256 0 k) h)) (fun k h => x2 (ix2 (row256 1 k) h)) (band0 x2) (band1 x2)

theorem hz : (![0, 0] : Fin 2 → Nat) = fun _ => 0 := funext fun a => by fin_cases a <;> rfl

/-- The printed index maps, decided over the 25 points. -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

variable (V : (c : Dev nD) → (b : Ref sig .tc) → Buf (Elt Ideal) ((c : Thread nD τ).loc b))

/-- The node model of the arrays the region finds. -/
def result (c : Dev nD) : S50000x128.Idx → EReal :=
  nodeOut (M := 50000) (V c main_v4 : S50000x128.Idx → EReal) (V c main_v32 : S50000x128.Idx → EReal)
    (V c main_v22 : S256x256.Idx → EReal) (V c main_v26 : S1x256.Idx → EReal)
    (V c main_v23 : S256x128.Idx → EReal) (V c main_v27 : S1x128.Idx → EReal)

/-- What point `t` writes back is block `t` of the node model of the arrays the region finds. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S1x256) hz, View.ld_unit_zero (S := S256x128) hz,
    View.ld_unit_zero (S := S1x128) hz]
  obtain ⟨e60, e61, e00, e01, e10, e11, e20, e21, e30, e31, e40, e41, e50, e51⟩ := idx_facts t
  have ht : t.val < 25 := by have := t.isLt; have : cfg1.N = 25 := N_1; omega
  have key : ∀ (r : Fin 2000) (d : Fin 128),
      k1_pay1 (F := Ideal) (iblk1 V c 0 t) (iblk1 V c 1 t) (View.ld (Val := Elt Ideal) (iblk1 V c 2 t) r1_1)
          (View.ld (Val := Elt Ideal) (iblk1 V c 2 t) r1_2) (iblk1 V c 3 t) (iblk1 V c 4 t) (iblk1 V c 5 t) (ix2 r d)
        = result V c (((cfg1.win 6).blk t).view.emb (ix2 r d)) := by
    intro r d
    have hr : r.val < 2000 := r.isLt
    refine (block_entry (iblk1 V c 0 t) (iblk1 V c 1 t) (iblk1 V c 2 t) (iblk1 V c 3 t) (iblk1 V c 4 t) (iblk1 V c 5 t) r d).trans ?_
    have hemb : ((cfg1.win 6).blk t).view.emb (ix2 r d)
        = ix2 (n0 := 50000) (n1 := 128) ⟨t.val * 2000 + r.val, by omega⟩ d := funext fun a => Fin.ext (by
      match a with
      | ⟨0, _⟩ => show win1_6.index t (0 : Fin 2) * 2000 + 1 * r.val = t.val * 2000 + r.val; rw [e60]; omega
      | ⟨1, _⟩ => show win1_6.index t (1 : Fin 2) * 128 + 1 * d.val = d.val; rw [e61]; omega)
    rw [hemb]
    show nodeAt (M := 2000) (iblk1 V c 0 t) (iblk1 V c 1 t) (iblk1 V c 2 t) (iblk1 V c 3 t) (iblk1 V c 4 t) (iblk1 V c 5 t) r d
      = nodeAt (M := 50000) (V c main_v4 : S50000x128.Idx → EReal) (V c main_v32 : S50000x128.Idx → EReal)
          (V c main_v22 : S256x256.Idx → EReal) (V c main_v26 : S1x256.Idx → EReal)
          (V c main_v23 : S256x128.Idx → EReal) (V c main_v27 : S1x128.Idx → EReal) ⟨t.val * 2000 + r.val, by omega⟩ d
    refine nodeAt_congr (iblk1 V c 0 t) (iblk1 V c 1 t) (V c main_v4 : S50000x128.Idx → EReal) (V c main_v32 : S50000x128.Idx → EReal)
      (iblk1 V c 2 t) (V c main_v22 : S256x256.Idx → EReal) (iblk1 V c 3 t) (V c main_v26 : S1x256.Idx → EReal)
      (iblk1 V c 4 t) (V c main_v23 : S256x128.Idx → EReal) (iblk1 V c 5 t) (V c main_v27 : S1x128.Idx → EReal)
      r ⟨t.val * 2000 + r.val, by omega⟩ d ?_ ?_ ?_ ?_ ?_ ?_
    · intro k
      show V c main_v4 (((cfg1.win 0).blk t).view.emb (ix2 r k)) = V c main_v4 (ix2 (n0 := 50000) (n1 := 128) ⟨t.val * 2000 + r.val, by omega⟩ k)
      refine congrArg (V c main_v4) (funext fun a => Fin.ext ?_)
      match a with
      | ⟨0, _⟩ => show win1_0.index t (0 : Fin 2) * 2000 + 1 * r.val = t.val * 2000 + r.val; rw [e00]; omega
      | ⟨1, _⟩ => show win1_0.index t (1 : Fin 2) * 128 + 1 * k.val = k.val; rw [e01]; omega
    · intro k
      show V c main_v32 (((cfg1.win 1).blk t).view.emb (ix2 r k)) = V c main_v32 (ix2 (n0 := 50000) (n1 := 128) ⟨t.val * 2000 + r.val, by omega⟩ k)
      refine congrArg (V c main_v32) (funext fun a => Fin.ext ?_)
      match a with
      | ⟨0, _⟩ => show win1_1.index t (0 : Fin 2) * 2000 + 1 * r.val = t.val * 2000 + r.val; rw [e10]; omega
      | ⟨1, _⟩ => show win1_1.index t (1 : Fin 2) * 128 + 1 * k.val = k.val; rw [e11]; omega
    · intro i
      show V c main_v22 (((cfg1.win 2).blk t).view.emb i) = V c main_v22 i
      refine congrArg (V c main_v22) (funext fun a => Fin.ext ?_)
      match a with
      | ⟨0, _⟩ => show win1_2.index t (0 : Fin 2) * 256 + 1 * (i 0).val = (i 0).val; rw [e20]; omega
      | ⟨1, _⟩ => show win1_2.index t (1 : Fin 2) * 256 + 1 * (i 1).val = (i 1).val; rw [e21]; omega
    · intro i
      show V c main_v26 (((cfg1.win 3).blk t).view.emb i) = V c main_v26 i
      refine congrArg (V c main_v26) (funext fun a => Fin.ext ?_)
      match a with
      | ⟨0, _⟩ => show win1_3.index t (0 : Fin 2) * 1 + 1 * (i 0).val = (i 0).val; rw [e30]; omega
      | ⟨1, _⟩ => show win1_3.index t (1 : Fin 2) * 256 + 1 * (i 1).val = (i 1).val; rw [e31]; omega
    · intro i
      show V c main_v23 (((cfg1.win 4).blk t).view.emb i) = V c main_v23 i
      refine congrArg (V c main_v23) (funext fun a => Fin.ext ?_)
      match a with
      | ⟨0, _⟩ => show win1_4.index t (0 : Fin 2) * 256 + 1 * (i 0).val = (i 0).val; rw [e40]; omega
      | ⟨1, _⟩ => show win1_4.index t (1 : Fin 2) * 128 + 1 * (i 1).val = (i 1).val; rw [e41]; omega
    · intro i
      show V c main_v27 (((cfg1.win 5).blk t).view.emb i) = V c main_v27 i
      refine congrArg (V c main_v27) (funext fun a => Fin.ext ?_)
      match a with
      | ⟨0, _⟩ => show win1_5.index t (0 : Fin 2) * 1 + 1 * (i 0).val = (i 0).val; rw [e50]; omega
      | ⟨1, _⟩ => show win1_5.index t (1 : Fin 2) * 128 + 1 * (i 1).val = (i 1).val; rw [e51]; omega
  have key' : ∀ y : S2000x128.Idx,
      k1_pay1 (F := Ideal) (iblk1 V c 0 t) (iblk1 V c 1 t) (View.ld (Val := Elt Ideal) (iblk1 V c 2 t) r1_1)
          (View.ld (Val := Elt Ideal) (iblk1 V c 2 t) r1_2) (iblk1 V c 3 t) (iblk1 V c 4 t) (iblk1 V c 5 t) y
        = result V c (((cfg1.win 6).blk t).view.emb y) := by
    intro y
    obtain ⟨r, d, rfl⟩ : ∃ (r : Fin 2000) (d : Fin 128), y = ix2 r d := ⟨y 0, y 1, eq_ix2 y⟩
    exact key r d
  funext j
  exact key' j

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v33).slice (win1_6.rect t)).set ↔ _
  rw [View.set_slice_whole, Rect.mem_set_unit]
  exact Iff.rfl

/-- Every row lies in the block of the point `row / 2000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by omega⟩
  obtain ⟨e60, e61, -⟩ := idx_facts t
  have htv : t.val = (i 0).val / 2000 := rfl
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e60, htv]; omega
  | ⟨1, _⟩ =>
    show win1_6.index t (1 : Fin 2) * 128 ≤ (i 1).val ∧ (i 1).val < win1_6.index t (1 : Fin 2) * 128 + 128
    rw [e61]; omega

/-- The node result after the region: the node model of the arrays the region finds. -/
theorem final (c : Dev nD) : (dat1 V c).arrAt 6 cfg1.N = result V c :=
  (dat1 V c).arrAt_eq_of_cover 6 (result V c) (fun t _ => flushed_eq V c t) cover

end Cert.KernelIdeal.NodeArray

end
-- ==== Proof.HostNode.lean ====
/-
  What the node region finds, and so the node result.

  Between the regions the host sums the edge results at each edge's second end node — the same scatter, on the same
  indices, of the same updates as the reference's, into zeros — and narrows the float format, which is the identity on
  the extended reals. The node features, weights and biases are as before the edge region. So the node region finds
  the operands of the reference's node stage, and its result is that stage.
-/
import proofs.«128783_j25134148616718_2_alg».proof.Proof.HostEdge
import proofs.«128783_j25134148616718_2_alg».proof.Proof.NodeArray

set_option maxRecDepth 16384

noncomputable section

namespace Cert.KernelIdeal.HostValues

open Cert.KernelIdeal Cert.KernelIdeal.Gen Cert.MessagePassing Idealize.ShloMosaic Idealize.ShloMosaic.ValueIdx Idealize.ShloMosaic.TcCoe
open Idealize.ShloMosaic.StableHlo Idealize.SL.Sem
open Cert.ReferenceIdeal.Read (val_main_v3 val_main_v10 val_main_v17 val_main_v27 val_main_v30 val_main_v40)

variable (m : (ℓ : Loc nD τ sig) → Buf (Elt Ideal) ℓ) (ρ : Dev nD → PrngReg)

/-! ## What the node region finds -/

/-- The node features. -/
theorem node_finds_x (c : Dev nD) : (V3 m ρ c main_v4 : S50000x128.Idx → EReal) = a0 m c := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  rfl
/-- The first weight. -/
theorem node_finds_w1 (c : Dev nD) : (V3 m ρ c main_v22 : S256x256.Idx → EReal) = a7 m c := by
  show StableHlo.after hostOps1 (W2 m ρ c) (Proc.devRef .tc main_v22) = _
  after_results
  rw [W2_of_ne m ρ c main_v22 (by decide)]
  show StableHlo.after hostOps0 (W0 m ρ c) (Proc.devRef .tc main_v22) = _
  after_results
  rfl
/-- The first bias, as a row. -/
theorem node_finds_b1 (c : Dev nD) : (V3 m ρ c main_v26 : S1x256.Idx → EReal) = asRow (a8 m c) := by
  show StableHlo.after hostOps1 (W2 m ρ c) (Proc.devRef .tc main_v26) = _
  after_results
  rw [W2_of_ne m ρ c main_v26 (by decide)]
  show StableHlo.after hostOps0 (W0 m ρ c) (Proc.devRef .tc main_v26) = _
  after_results
  exact cast_asRow (n := 256) (a8 m c) shapeCasts_S256_S1x256
/-- The second weight. -/
theorem node_finds_w2 (c : Dev nD) : (V3 m ρ c main_v23 : S256x128.Idx → EReal) = a9 m c := by
  show StableHlo.after hostOps1 (W2 m ρ c) (Proc.devRef .tc main_v23) = _
  after_results
  rw [W2_of_ne m ρ c main_v23 (by decide)]
  show StableHlo.after hostOps0 (W0 m ρ c) (Proc.devRef .tc main_v23) = _
  after_results
  rfl
/-- The second bias, as a row. -/
theorem node_finds_b2 (c : Dev nD) : (V3 m ρ c main_v27 : S1x128.Idx → EReal) = asRow (a10 m c) := by
  show StableHlo.after hostOps1 (W2 m ρ c) (Proc.devRef .tc main_v27) = _
  after_results
  rw [W2_of_ne m ρ c main_v27 (by decide)]
  show StableHlo.after hostOps0 (W0 m ρ c) (Proc.devRef .tc main_v27) = _
  after_results
  exact cast_asRow (n := 128) (a10 m c) shapeCasts_S128_S1x128

/-- The second end nodes' indices survive the edge region. -/
theorem second_ends_kept (c : Dev nD) :
    (W2 m ρ c (Proc.devRef .tc main_v3) : (⟨Cert.ReferenceIdeal.S500000, .i32⟩ : BufTy).Contents (Elt Ideal)) = val_main_v3 (F := Ideal) (a1 m c) := by
  rw [W2_of_ne m ρ c main_v3 (by decide)]
  show StableHlo.after hostOps0 (W0 m ρ c) (Proc.devRef .tc main_v3) = _
  after_results
  rfl

/-- The edge result, as the second stretch of host operations finds it. -/
theorem edge_result_kept (c : Dev nD) :
    (W2 m ρ c (Proc.devRef .tc main_v28) : (⟨Cert.ReferenceIdeal.S500000x128, .f32⟩ : BufTy).Contents (Elt Ideal))
      = val_main_v27 (F := Ideal) (a0 m c) (a1 m c) (a2 m c) (a3 m c) (a4 m c) (a5 m c) (a6 m c) :=
  (W2_arr m ρ c 7).trans (edge_value m ρ c)

/-- The host's sum of the updates `U` at the nodes `I` names, narrowed in float format, is the reference's sum: the same
    scatter into zeros, the narrowing the identity on the extended reals. -/
theorem sum_stage (I : (⟨Cert.ReferenceIdeal.S500000, .i32⟩ : BufTy).Contents (Elt Ideal)) (U : (⟨Cert.ReferenceIdeal.S500000x128, .f32⟩ : BufTy).Contents (Elt Ideal)) :
    (truncf .bf16 (Host.scatterAdd scatter_S50000x128_S500000x1_S500000x128_1_0_0_1
        (broadcastInDim S50000x128 ![] Cert.KernelIdeal.Gen.bcast_S_S50000x128 (constant (F := Ideal) S_ .f32 0x00000000#32))
        (broadcastInDim S500000x1 ![0] Cert.KernelIdeal.Gen.bcast_S500000_S500000x1_0 I) U) bitsLt_bf16_f32 : S50000x128.Idx → EReal)
      = Host.scatterAdd Cert.ReferenceIdeal.scatter_S50000x128_S500000x1_S500000x128_1_0_0_1 (Cert.ReferenceIdeal.Read.val_main_v28 (F := Ideal))
          (broadcastInDim Cert.ReferenceIdeal.S500000x1 ![0] Cert.ReferenceIdeal.Gen.bcast_S500000_S500000x1_0 I) U := by
  funext i
  rw [truncf_apply]
  rfl

/-- The messages summed at each node. -/
theorem node_finds_sum (c : Dev nD) :
    (V3 m ρ c main_v32 : S50000x128.Idx → EReal)
      = val_main_v30 (F := Ideal) (a0 m c) (a1 m c) (a2 m c) (a3 m c) (a4 m c) (a5 m c) (a6 m c) := by
  show StableHlo.after hostOps1 (W2 m ρ c) (Proc.devRef .tc main_v32) = _
  after_results
  rw [second_ends_kept m ρ c, edge_result_kept m ρ c]
  unfold Cert.ReferenceIdeal.Read.val_main_v30 Cert.ReferenceIdeal.Read.val_main_v29
  exact sum_stage _ _

/-- The node result after its region is the reference's node stage of the arguments. -/
theorem node_value (c : Dev nD) :
    (dat1 (V3 m ρ) c).arrAt 6 cfg1.N
      = val_main_v40 (F := Ideal) (a0 m c) (a1 m c) (a2 m c) (a3 m c) (a4 m c) (a5 m c) (a6 m c) (a7 m c) (a8 m c) (a9 m c) (a10 m c) := by
  rw [NodeArray.final (V3 m ρ) c]
  unfold NodeArray.result
  rw [node_finds_x, node_finds_sum, node_finds_w1, node_finds_b1, node_finds_w2, node_finds_b2]
  exact (Cert.ReferenceIdeal.Layer.node_eq (a0 m c) (a1 m c) (a2 m c) (a3 m c) (a4 m c) (a5 m c) (a6 m c) (a7 m c) (a8 m c) (a9 m c) (a10 m c)).symm

/-- The node result at the end of the run. -/
theorem exit_node (c : Dev nD) :
    W4 m ρ c (Proc.devRef .tc main_v33)
      = val_main_v40 (F := Ideal) (a0 m c) (a1 m c) (a2 m c) (a3 m c) (a4 m c) (a5 m c) (a6 m c) (a7 m c) (a8 m c) (a9 m c) (a10 m c) :=
  (RunExit.exit_main_v33 m ρ c).trans (node_value m ρ c)

end Cert.KernelIdeal.HostValues

end
-- ==== Proof.lean ====
/-
  One round of message passing on a graph: two tiled kernels and the host operations around them against a plain
  whole-array reference, on the extended reals.

  Both programs compute, for every edge, a two-layer perceptron of the features of its two end nodes and its own
  features, sum the results at each edge's second end node, and then compute for every node a two-layer perceptron of
  its features and that sum. The reference joins the 128-wide rows into one 384-wide (256-wide) row and multiplies by
  the whole first weight; the kernels multiply each row by its 128-row band of the weight and add the products, in
  blocks of 4000 edges and 2000 nodes, after changes of float format that are the identity on the extended reals.
  The two agree because a finite sum may be taken band by band — commutativity and associativity of addition only, so
  no finiteness of the inputs is used — and because each kernel's blocks tile its array. The host operations that pick
  the end-node rows and that sum the messages are the same in both programs and are never opened.

  The idealization rewrote no operation, so `preserves` asks nothing. The kernels' frames are the generated ones;
  the reference's frame is its generated run with the results dropped.
-/
import proofs.«128783_j25134148616718_2_alg».proof.Defs
import proofs.«128783_j25134148616718_2_alg».proof.Proof.Gen.Kernel
import proofs.«128783_j25134148616718_2_alg».proof.Proof.Gen.Kernel.Skeleton
import proofs.«128783_j25134148616718_2_alg».proof.Proof.Gen.Kernel.Launch
import proofs.«128783_j25134148616718_2_alg».proof.Proof.Gen.Kernel.Points
import proofs.«128783_j25134148616718_2_alg».proof.Proof.Gen.Kernel.Frame
import proofs.«128783_j25134148616718_2_alg».proof.Proof.Gen.KernelIdeal
import proofs.«128783_j25134148616718_2_alg».proof.Proof.Gen.KernelIdeal.Skeleton
import proofs.«128783_j25134148616718_2_alg».proof.Proof.Gen.KernelIdeal.Launch
import proofs.«128783_j25134148616718_2_alg».proof.Proof.Gen.KernelIdeal.Points
import proofs.«128783_j25134148616718_2_alg».proof.Proof.Gen.KernelIdeal.Frame
import proofs.«128783_j25134148616718_2_alg».proof.Proof.Gen.ReferenceIdeal
import proofs.«128783_j25134148616718_2_alg».proof.Proof.Gen.ReferenceIdeal.Run
import proofs.«128783_j25134148616718_2_alg».proof.Proof.Gen.ReferenceIdeal.Read
import proofs.«128783_j25134148616718_2_alg».proof.Proof.Gen.Pre_finite_inputs
import proofs.«128783_j25134148616718_2_alg».proof.Proof.HostNode
import Idealize.ShloMosaic.Adequacy
import Idealize.ShloMosaic.Init

noncomputable section

namespace Cert.Proof

open Idealize.ShloMosaic Idealize.SL.Sem

/-- The kernel pair runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

open Cert.KernelIdeal.HostValues in
/-- Both programs end with the reference's node stage and edge stage of the arguments. -/
theorem algebraic : Cert.algebraic_KernelIdeal_ReferenceIdeal := by
  intro m ρ m' ρ' _ hagree
  refine ⟨fun c => Cert.ReferenceIdeal.Read.val_main_v40 (F := Ideal) (a0 m c) (a1 m c) (a2 m c) (a3 m c) (a4 m c) (a5 m c) (a6 m c)
      (a7 m c) (a8 m c) (a9 m c) (a10 m c),
    fun c => Cert.ReferenceIdeal.Read.val_main_v27 (F := Ideal) (a0 m c) (a1 m c) (a2 m c) (a3 m c) (a4 m c) (a5 m c) (a6 m c), ?_, ?_⟩
  · refine (θ_run Cert.KernelIdeal.defs _ _).mono (fun r h c => ?_) (Cert.KernelIdeal.RunExit.run_exit (F := Ideal) m ρ)
    exact ⟨(Cert.KernelIdeal.RunExit.mem_exit m ρ h c Cert.KernelIdeal.main_v33 (by decide)).trans (exit_node m ρ c),
      (Cert.KernelIdeal.RunExit.mem_exit m ρ h c Cert.KernelIdeal.main_v28 (by decide)).trans (exit_edge m ρ c),
      (Cert.KernelIdeal.RunExit.mem_exit m ρ h c Cert.KernelIdeal.main_arg0 (by decide)).trans (Cert.KernelIdeal.Gen.W4_main_arg0 m ρ c),
      (Cert.KernelIdeal.RunExit.mem_exit m ρ h c Cert.KernelIdeal.main_arg1 (by decide)).trans (Cert.KernelIdeal.Gen.W4_main_arg1 m ρ c),
      (Cert.KernelIdeal.RunExit.mem_exit m ρ h c Cert.KernelIdeal.main_arg2 (by decide)).trans (Cert.KernelIdeal.Gen.W4_main_arg2 m ρ c),
      (Cert.KernelIdeal.RunExit.mem_exit m ρ h c Cert.KernelIdeal.main_arg3 (by decide)).trans (Cert.KernelIdeal.Gen.W4_main_arg3 m ρ c),
      (Cert.KernelIdeal.RunExit.mem_exit m ρ h c Cert.KernelIdeal.main_arg4 (by decide)).trans (Cert.KernelIdeal.Gen.W4_main_arg4 m ρ c),
      (Cert.KernelIdeal.RunExit.mem_exit m ρ h c Cert.KernelIdeal.main_arg5 (by decide)).trans (Cert.KernelIdeal.Gen.W4_main_arg5 m ρ c),
      (Cert.KernelIdeal.RunExit.mem_exit m ρ h c Cert.KernelIdeal.main_arg6 (by decide)).trans (Cert.KernelIdeal.Gen.W4_main_arg6 m ρ c),
      (Cert.KernelIdeal.RunExit.mem_exit m ρ h c Cert.KernelIdeal.main_arg7 (by decide)).trans (Cert.KernelIdeal.Gen.W4_main_arg7 m ρ c),
      (Cert.KernelIdeal.RunExit.mem_exit m ρ h c Cert.KernelIdeal.main_arg8 (by decide)).trans (Cert.KernelIdeal.Gen.W4_main_arg8 m ρ c),
      (Cert.KernelIdeal.RunExit.mem_exit m ρ h c Cert.KernelIdeal.main_arg9 (by decide)).trans (Cert.KernelIdeal.Gen.W4_main_arg9 m ρ c),
      (Cert.KernelIdeal.RunExit.mem_exit m ρ h c Cert.KernelIdeal.main_arg10 (by decide)).trans (Cert.KernelIdeal.Gen.W4_main_arg10 m ρ c)⟩
  · refine (θ_run Cert.ReferenceIdeal.defs _ _).mono (fun r h c => ?_) (Cert.ReferenceIdeal.Value.run (F := Ideal) m' ρ')
    obtain ⟨e0, e1, e2, e3, e4, e5, e6, e7, e8, e9, e10⟩ := hagree c
    refine ⟨((h c).1.trans (Cert.ReferenceIdeal.Read.val_main_v40_eq _ _ _ _ _ _ _ _ _ _ _)).trans ?_,
      ((h c).2.1.trans (Cert.ReferenceIdeal.Read.val_main_v27_eq _ _ _ _ _ _ _)).trans ?_, (h c).2.2⟩
    · rw [e0, e1, e2, e3, e4, e5, e6, e7, e8, e9, e10]
    · rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
